-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 33
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Combine.lean ====
/-
  The value both programs compute, as one function of the arrays, entry by entry, on the extended reals.

  A node p of the graph has a feature row feat[p, ·] of width 128 and an aggregated neighbour row hn[p, ·] of the same
  width (how hn is obtained from the edges is the same computation in both programs and is never opened here: it enters
  as an array). Output entry (p, n) is

      ( Σ_k feat[p, k] · wSelf[k, n]  +  Σ_k hn[p, k] · wNeigh[k, n] )  +  bias[n],

  the two 128-term sums first, the bias last: both programs group the three terms this way, so no rearrangement of a
  sum of extended reals is needed, and nothing here depends on the entries being finite.
-/
import Idealize.ShloMosaic.PureOps.Ideal
import Idealize.ShloMosaic.Lib.ValueIdx

noncomputable section

namespace Cert.Combine

open Idealize.ShloMosaic Idealize.ShloMosaic.ValueIdx

/-- One row per node, 128 features wide. -/
abbrev Rows : Shape := ⟨2, ![100000, 128]⟩
/-- A square weight matrix on the features. -/
abbrev Square : Shape := ⟨2, ![128, 128]⟩
/-- One bias entry per output feature. -/
abbrev Feat : Shape := ⟨1, ![128]⟩

/-- Output entry (p, n): the self projection plus the neighbour projection, then the bias. -/
def entry (feat hn : FVec Ideal Rows .f32) (wSelf wNeigh : FVec Ideal Square .f32) (bias : FVec Ideal Feat .f32)
    (p : Fin 100000) (n : Fin 128) : EReal :=
  ((∑ k : Fin 128, feat (ix2 p k) * wSelf (ix2 k n)) + ∑ k : Fin 128, hn (ix2 p k) * wNeigh (ix2 k n)) + bias (ix1 n)

/-- The whole output array. -/
def combine (feat hn : FVec Ideal Rows .f32) (wSelf wNeigh : FVec Ideal Square .f32) (bias : FVec Ideal Feat .f32) :
    FVec Ideal Rows .f32 :=
  fun i => entry feat hn wSelf wNeigh bias (i 0) (i 1)

theorem combine_apply (feat hn : FVec Ideal Rows .f32) (wSelf wNeigh : FVec Ideal Square .f32) (bias : FVec Ideal Feat .f32)
    (p : Fin 100000) (n : Fin 128) :
    combine feat hn wSelf wNeigh bias (ix2 p n) = entry feat hn wSelf wNeigh bias p n := rfl

end Cert.Combine

end
-- ==== Proof.BlockEntry.lean ====
/-
  What the kernel's body stores, read at one entry of its 5000-row block.

  The body casts its four loaded blocks to bf16 (on the extended reals a change of format is the identity), takes two
  matrix products into zero accumulators, adds them, and adds the one-row bias block broadcast down the rows. Read at
  entry (p, n) of the block that is

      ( Σ_k x[p, k] · ws[k, n]  +  Σ_k h[p, k] · wn[k, n] )  +  b[0, n],

  a product into the zero accumulator being the bare 128-term sum because 0 + s = s for every extended real s.
-/
import proofs.«114133_j7945689498280_1_alg».proof.Proof.Gen.KernelIdeal.Skeleton
import proofs.«114133_j7945689498280_1_alg».proof.Proof.LibMatmulPlain
import proofs.«114133_j7945689498280_1_alg».proof.Proof.Combine
import Idealize.ShloMosaic.Lib.ValueIdx
import Idealize.ShloMosaic.Lib.ValueLayout
import Idealize.ShloMosaic.Lib.Pipeline.Value

noncomputable section

namespace Cert.KernelIdeal.BlockEntry

open Cert.KernelIdeal Cert.KernelIdeal.Gen Idealize.ShloMosaic Idealize.ShloMosaic.ValueIdx

/-- Entry (p, n) of the stored block, from the five loaded blocks: the rows' block x, the neighbour rows' block h, the
    two weight matrices, and the bias as a one-row block. -/
theorem stored_apply (x h : Vec Ideal S5000x128 .f32) (ws wn : Vec Ideal S128x128 .f32) (b : Vec Ideal S1x128 .f32)
    (p : Fin 5000) (n : Fin 128) :
    k0_pay1 (F := Ideal) x h ws wn b (ix2 p n)
      = ((∑ k : Fin 128, x (ix2 p k) * ws (ix2 k n)) + ∑ k : Fin 128, h (ix2 p k) * wn (ix2 k n)) + b (ix2 (0 : Fin 1) n) := by
  -- the self projection: a product into the zero accumulator
  have hSelf := Cert.LibMatmulPlain.matmul_zero_apply (M := 5000) (K := 128) (N := 128)
    dot_S5000x128_S128x128_S5000x128_1_0_0_1_n_n_wf none
    (truncf .bf16 (x : FVec Ideal S5000x128 .f32) bitsLt_bf16_f32) (truncf .bf16 (ws : FVec Ideal S128x128 .f32) bitsLt_bf16_f32) p n
  -- the neighbour projection likewise; its left operand passes through a cast to its own shape first
  have hNeigh := (Cert.LibMatmulPlain.matmul_zero_apply (M := 5000) (K := 128) (N := 128)
    dot_S5000x128_S128x128_S5000x128_1_0_0_1_n_n_wf none
    (truncf .bf16 (shapeCast S5000x128 (h : FVec Ideal S5000x128 .f32) shapeCasts_S5000x128_S5000x128) bitsLt_bf16_f32)
    (truncf .bf16 (wn : FVec Ideal S128x128 .f32) bitsLt_bf16_f32) p n).trans
    (Finset.sum_congr rfl fun k _ => congrArg (· * wn (ix2 k n))
      (congrFun (shapeCast_self (h : FVec Ideal S5000x128 .f32) shapeCasts_S5000x128_S5000x128) (ix2 p k)))
  -- the bias row broadcast down the 5000 rows reads its one row
  have hBias := (broadcastTo_1b_ab_apply (a := 5000) (b := 128)
    (shapeCast S1x128 (b : FVec Ideal S1x128 .f32) shapeCasts_S1x128_S1x128) broadcasts_S1x128_S5000x128 p n).trans
    (congrFun (shapeCast_self (b : FVec Ideal S1x128 .f32) shapeCasts_S1x128_S1x128) (ix2 (0 : Fin 1) n))
  exact congrArg₂ (· + ·) (congrArg₂ (· + ·) hSelf hNeigh) hBias

/-- The stored block is a block of the combine function. Let the loaded blocks be: rows 5000·r … 5000·r + 4999 of the
    feature array and of the neighbour array (entry y of the block is the array's entry at row 5000·r + y₀, column y₁),
    the two weight matrices whole, and the bias as one row. Then entry j of the stored block is the combine function's
    entry at row 5000·r + j₀, column j₁. -/
theorem stored_eq_combine (x h : Vec Ideal S5000x128 .f32) (ws wn : Vec Ideal S128x128 .f32) (b : Vec Ideal S1x128 .f32)
    (feat hn : FVec Ideal Cert.Combine.Rows .f32) (wSelf wNeigh : FVec Ideal Cert.Combine.Square .f32)
    (bias : FVec Ideal Cert.Combine.Feat .f32) (r : Nat)
    (hx : ∀ (y : S5000x128.Idx) (i : Cert.Combine.Rows.Idx), (i 0).val = r * 5000 + (y 0).val → (i 1).val = (y 1).val →
      x y = feat i)
    (hh : ∀ (y : S5000x128.Idx) (i : Cert.Combine.Rows.Idx), (i 0).val = r * 5000 + (y 0).val → (i 1).val = (y 1).val →
      h y = hn i)
    (hws : ∀ y : S128x128.Idx, ws y = wSelf y)
    (hwn : ∀ y : S128x128.Idx, wn y = wNeigh y)
    (hb : ∀ y : S1x128.Idx, b y = bias (ix1 (y 1)))
    (j : S5000x128.Idx) (i : Cert.Combine.Rows.Idx)
    (hi0 : (i 0).val = r * 5000 + (j 0).val) (hi1 : (i 1).val = (j 1).val) :
    k0_pay1 (F := Ideal) x h ws wn b j = Cert.Combine.combine feat hn wSelf wNeigh bias i := by
  obtain ⟨p, n, rfl⟩ : ∃ (p : Fin 5000) (n : Fin 128), j = ix2 p n := ⟨j 0, j 1, eq_ix2 j⟩
  obtain ⟨q, n', rfl⟩ : ∃ (q : Fin 100000) (n' : Fin 128), i = ix2 q n' := ⟨i 0, i 1, eq_ix2 i⟩
  have hq : q.val = r * 5000 + p.val := hi0
  obtain rfl : n' = n := Fin.ext hi1
  rw [stored_apply, Cert.Combine.combine_apply]
  unfold Cert.Combine.entry
  rw [hb (ix2 (0 : Fin 1) n')]
  refine congrArg (· + bias (ix1 n')) (congrArg₂ (· + ·) ?_ ?_)
  · exact Finset.sum_congr rfl fun k _ => by rw [hx (ix2 p k) (ix2 q k) hq rfl, hws (ix2 k n')]
  · exact Finset.sum_congr rfl fun k _ => by rw [hh (ix2 p k) (ix2 q k) hq rfl, hwn (ix2 k n')]

end Cert.KernelIdeal.BlockEntry

end
-- ==== Proof.WholeArray.lean ====
/-
  From blocks to the array: after the kernel's run its output array is the combine function of the arrays the
  region finds.

  The grid has 20 points. At point t the feature window, the neighbour window and the output window are all at
  block-row t of their [100000, 128] arrays, blocks of 5000 rows; the two weight windows and the one-row bias window
  stay at their whole arrays. So what point t writes back is rows 5000·t … 5000·t + 4999 of the combine function
  (the block entry lemma), and since 20 · 5000 = 100000 the row r of the output lies in the block of point r / 5000:
  the blocks cover the array, and the array ends equal to the combine function everywhere.
-/
import proofs.«114133_j7945689498280_1_alg».proof.Proof.Gen.KernelIdeal.Value
import proofs.«114133_j7945689498280_1_alg».proof.Proof.BlockEntry
import proofs.«114133_j7945689498280_1_alg».proof.Proof.Combine

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- The printed index maps, decided over the 20 points: the three row-blocked windows are at block-row t, column
    block 0; the weight and bias windows at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A grid point's blocks of arbitrary arrays

The arrays are variables here: what a window's block reads of an array depends only on where the block sits. -/

/-- Block t of the feature window, of any [100000, 128] array: entry y is the array's entry at row 5000·t + y₀, column y₁. -/
theorem read_rows0 (A : (⟨S100000x128, .f32⟩ : BufTy).Contents (Elt Ideal)) (t : Fin cfg0.N) (y : S5000x128.Idx)
    (i : S100000x128.Idx) (h0 : (i 0).val = t.val * 5000 + (y 0).val) (h1 : (i 1).val = (y 1).val) :
    ((cfg0.win 0).blk t).view.read (Elt Ideal) A y = A i := by
  obtain ⟨e00, e01, -⟩ := index_facts t
  show A (((cfg0.win 0).blk t).view.emb y) = A i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Block t of the neighbour window likewise. -/
theorem read_rows1 (A : (⟨S100000x128, .f32⟩ : BufTy).Contents (Elt Ideal)) (t : Fin cfg0.N) (y : S5000x128.Idx)
    (i : S100000x128.Idx) (h0 : (i 0).val = t.val * 5000 + (y 0).val) (h1 : (i 1).val = (y 1).val) :
    ((cfg0.win 1).blk t).view.read (Elt Ideal) A y = A i := by
  obtain ⟨-, -, e10, e11, -⟩ := index_facts t
  show A (((cfg0.win 1).blk t).view.emb y) = A i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The self-weight window's block is its whole array at every point. -/
theorem read_square2 (A : (⟨S128x128, .f32⟩ : BufTy).Contents (Elt Ideal)) (t : Fin cfg0.N) (y : S128x128.Idx) :
    ((cfg0.win 2).blk t).view.read (Elt Ideal) A y = A y := by
  obtain ⟨-, -, -, -, e20, e21, -⟩ := index_facts t
  show A (((cfg0.win 2).blk t).view.emb y) = A y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- So is the neighbour-weight window's. -/
theorem read_square3 (A : (⟨S128x128, .f32⟩ : BufTy).Contents (Elt Ideal)) (t : Fin cfg0.N) (y : S128x128.Idx) :
    ((cfg0.win 3).blk t).view.read (Elt Ideal) A y = A y := by
  obtain ⟨-, -, -, -, -, -, e30, e31, -⟩ := index_facts t
  show A (((cfg0.win 3).blk t).view.emb y) = A y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's block is its one-row array: entry y is the row's entry at column y₁. -/
theorem read_row4 (A : (⟨S1x128, .f32⟩ : BufTy).Contents (Elt Ideal)) (t : Fin cfg0.N) (y : S1x128.Idx) :
    ((cfg0.win 4).blk t).view.read (Elt Ideal) A y = A (ix2 (0 : Fin 1) (y 1)) := by
  obtain ⟨-, -, -, -, -, -, -, -, e40, e41, -⟩ := index_facts t
  have hy0 : (y 0).val < 1 := (y 0).isLt
  show A (((cfg0.win 4).blk t).view.emb y) = A (ix2 (0 : Fin 1) (y 1))
  refine congrArg _ (funext fun a => Fin.ext ?_)
  match a with
  | ⟨0, _⟩ => show win0_4.index t (0 : Fin 2) * 1 + 1 * (y 0).val = 0; omega
  | ⟨1, _⟩ => show win0_4.index t (1 : Fin 2) * 128 + 1 * (y 1).val = (y 1).val; omega

/-- WHAT A POINT STORES, for arbitrary arrays: the body's stored block of the five windows' blocks at point t is
    block t of the combine function of the arrays, the bias being any [128] array whose entries are those of the
    one-row array the bias window stages. -/
theorem point_block (A0 A1 : (⟨S100000x128, .f32⟩ : BufTy).Contents (Elt Ideal))
    (A2 A3 : (⟨S128x128, .f32⟩ : BufTy).Contents (Elt Ideal)) (A4 : (⟨S1x128, .f32⟩ : BufTy).Contents (Elt Ideal))
    (bias : FVec Ideal Cert.Combine.Feat .f32) (hbias : ∀ n : Fin 128, A4 (ix2 (0 : Fin 1) n) = bias (ix1 n))
    (t : Fin cfg0.N) :
    (cfg0.win 5).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Cert.Combine.combine A0 A1 A2 A3 bias) := by
  obtain ⟨-, -, -, -, -, -, -, -, -, -, e50, e51⟩ := index_facts t
  funext j
  refine Cert.KernelIdeal.BlockEntry.stored_eq_combine
    (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) A0 A1 A2 A3 bias t.val
    (read_rows0 A0 t) (read_rows1 A1 t) (read_square2 A2 t) (read_square3 A3 t)
    (fun y => (read_row4 A4 t y).trans (hbias (y 1))) j (((cfg0.win 5).blk t).view.emb j) ?_ ?_
  · show win0_5.index t (0 : Fin 2) * 5000 + 1 * (j 0).val = t.val * 5000 + (j 0).val; omega
  · show win0_5.index t (1 : Fin 2) * 128 + 1 * (j 1).val = (j 1).val; omega

/-! ## The kernel's blocks -/

/-- WHAT POINT t WRITES BACK is block t of the combine function of the arrays as the region finds them (taken whole,
    never read at an index here), the bias being any [128] array whose entries are those of the one-row array the bias
    window stages. -/
theorem flushed_eq (c : Dev nD) (bias : FVec Ideal Cert.Combine.Feat .f32)
    (hbias : ∀ n : Fin 128, V m c main_v19 (ix2 (0 : Fin 1) n) = bias (ix1 n)) (t : Fin cfg0.N) :
    (dats m 0 c).flushed 5 t = ((cfg0.win 5).blk t).view.read (Elt Ideal)
      (Cert.Combine.combine (V m c main_arg0) (V m c main_v18) (V m c main_arg1) (V m c main_arg2) bias) := by
  rw [Cert.KernelIdeal.Value.flushed5]
  unfold out0_5
  rw [View.canon_unit_zero origin]
  simp only [View.ld_unit_zero (S := S5000x128) origin, View.ld_unit_zero (S := S128x128) origin,
    View.ld_unit_zero (S := S1x128) origin]
  exact point_block (V m c main_arg0) (V m c main_v18) (V m c main_arg1) (V m c main_arg2) (V m c main_v19) bias hbias t

/-- An index of the array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- THE COVER: row r of the array lies in the block of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, e50, e51⟩ := index_facts t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE ARRAY after the run: the combine function of the arrays as the region finds them. -/
theorem final (c : Dev nD) (bias : FVec Ideal Cert.Combine.Feat .f32)
    (hbias : ∀ n : Fin 128, V m c main_v19 (ix2 (0 : Fin 1) n) = bias (ix1 n)) :
    (dats m 0 c).arrAt 5 cfg0.N
      = Cert.Combine.combine (V m c main_arg0) (V m c main_v18) (V m c main_arg1) (V m c main_arg2) bias :=
  (dats m 0 c).arrAt_eq_of_cover 5 _ (fun t _ => flushed_eq m c bias hbias t) cover

end Cert.KernelIdeal.WholeArray

end
-- ==== Proof.RegionEntry.lean ====
/-
  The two arrays the kernel's region finds that the host computed before it.

  Before the region the host program gathers the source node's feature row along every edge, adds those rows into the
  destination nodes, counts each node's incoming edges the same way, and divides each summed row by the count (or by 1
  where there is none): the aggregated neighbour rows. The reference performs exactly these operations on the same
  arguments, so the array is stated as the reference's own stage of them and the operations are never opened; the two
  programs' dimension records differ only in the name under which each program states them.
  The bias is reshaped from [128] to the one-row array [1, 128] the bias window stages; its entry (0, n) is entry n.
-/
import proofs.«114133_j7945689498280_1_alg».proof.Proof.Gen.KernelIdeal.Frame
import proofs.«114133_j7945689498280_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The neighbour window's array is the aggregated neighbour rows of the arguments: the reference's stage of the feature
    rows, the edges' sources and the edges' destinations. -/
theorem neighbours (c : Dev nD) :
    (V m c main_v18 : S100000x128.Idx → EReal)
      = Cert.ReferenceIdeal.Read.val_main_v18 (F := Ideal) (m ((c : Thread nD τ).loc main_arg0))
          (m ((c : Thread nD τ).loc main_arg4)) (m ((c : Thread nD τ).loc main_arg5)) := by
  dsimp only [Gen.V, Gen.hostOps0]
  after_results_simp
  rfl

/-- The bias window's array is the bias argument as one row. -/
theorem bias_row (c : Dev nD) :
    (V m c main_v19 : S1x128.Idx → EReal)
      = shapeCast S1x128 (m ((c : Thread nD τ).loc main_arg3)) shapeCasts_S128_S1x128 := by
  dsimp only [Gen.V, Gen.hostOps0]
  after_results
  rfl

/-- Entry (0, n) of the bias window's array is entry n of the bias argument. -/
theorem bias_entry (c : Dev nD) (n : Fin 128) :
    V m c main_v19 (ix2 (0 : Fin 1) n) = m ((c : Thread nD τ).loc main_arg3) (ix1 n) :=
  (congrFun (bias_row m c) (ix2 (0 : Fin 1) n)).trans
    (shapeCast_a_1a_apply (m ((c : Thread nD τ).loc main_arg3)) shapeCasts_S128_S1x128 (0 : Fin 1) n)

end Cert.KernelIdeal.RegionEntry

end
-- ==== Proof.KernelValue.lean ====
/-
  The kernel's run, with its result named: the combine function of the arguments.

  After the run the output array is the combine function of the arrays the region finds (the blocks-to-array step).
  The region finds the feature rows and the two weight matrices as launched, since no host operation writes them; the
  neighbour window's array is the aggregated neighbour rows of the arguments, and the bias window's one row is the bias
  argument (the region-entry lemmas). Substituting, the result is a function of the six arguments alone.
-/
import proofs.«114133_j7945689498280_1_alg».proof.Proof.WholeArray
import proofs.«114133_j7945689498280_1_alg».proof.Proof.RegionEntry

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result as a function of the arguments on core c. -/
abbrev result (c : Dev nD) : Buf (Elt Ideal) ((c : Thread nD τ).loc main_v20) :=
  Cert.Combine.combine (m ((c : Thread nD τ).loc main_arg0))
    (Cert.ReferenceIdeal.Read.val_main_v18 (F := Ideal) (m ((c : Thread nD τ).loc main_arg0))
      (m ((c : Thread nD τ).loc main_arg4)) (m ((c : Thread nD τ).loc main_arg5)))
    (m ((c : Thread nD τ).loc main_arg1)) (m ((c : Thread nD τ).loc main_arg2)) (m ((c : Thread nD τ).loc main_arg3))

/-- The output array after the run is that function of the arguments. -/
theorem final (c : Dev nD) : (dats m 0 c).arrAt 5 cfg0.N = result m c := by
  rw [Cert.KernelIdeal.WholeArray.final m c (m ((c : Thread nD τ).loc main_arg3)) (Cert.KernelIdeal.RegionEntry.bias_entry m c),
    V_main_arg0, V_main_arg1, V_main_arg2, Cert.KernelIdeal.RegionEntry.neighbours]

/-- Every weakly fair execution of the kernel's program terminates with the result at the combine function of the
    arguments and the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.KernelValue

end
-- ==== Proof.ReferenceValue.lean ====
/-
  The reference's result, read entry by entry, is the combine function of its arguments.

  The reference multiplies the feature rows by the self weights and the aggregated neighbour rows (its stage %18, kept
  here as one array and never opened) by the neighbour weights, adds the two products, and adds the bias broadcast down
  the rows. A product of a [100000, 128] matrix by a [128, 128] matrix read at entry (p, n) is the 128-term sum over the
  contracted index; the bias broadcast twice, [128] to [1, 128] to [100000, 128], reads at (p, n) its entry n.
-/
import proofs.«114133_j7945689498280_1_alg».proof.Proof.Gen.ReferenceIdeal.Read
import proofs.«114133_j7945689498280_1_alg».proof.Proof.Combine

noncomputable section

namespace Cert.ReferenceIdeal.RefValue

open Cert.ReferenceIdeal Cert.ReferenceIdeal.Read Idealize.ShloMosaic Idealize.ShloMosaic.ValueIdx

/-- The left operand's index of either product, for output entry (p, n) and contracted index k, is (p, k). -/
theorem lidx19 (p : Fin 100000) (n k : Fin 128) : lidx_main_v19 (ix2 p n) k = ix2 p k :=
  funext fun a => Fin.ext (by match a with | ⟨0, _⟩ => rfl | ⟨1, _⟩ => rfl)
theorem lidx20 (p : Fin 100000) (n k : Fin 128) : lidx_main_v20 (ix2 p n) k = ix2 p k :=
  funext fun a => Fin.ext (by match a with | ⟨0, _⟩ => rfl | ⟨1, _⟩ => rfl)
/-- The right operand's index is (k, n). -/
theorem ridx19 (p : Fin 100000) (n k : Fin 128) : ridx_main_v19 (ix2 p n) k = ix2 k n :=
  funext fun a => Fin.ext (by match a with | ⟨0, _⟩ => rfl | ⟨1, _⟩ => rfl)
theorem ridx20 (p : Fin 100000) (n k : Fin 128) : ridx_main_v20 (ix2 p n) k = ix2 k n :=
  funext fun a => Fin.ext (by match a with | ⟨0, _⟩ => rfl | ⟨1, _⟩ => rfl)
/-- The bias entry read at output entry (p, n) is entry n. -/
theorem bidx (p : Fin 100000) (n : Fin 128) : idx_main_v22 (idx_main_v23 (ix2 p n)) = ix1 n :=
  funext fun a => Fin.ext (by match a with | ⟨0, _⟩ => rfl)

/-- The reference's result stage is the combine function of the feature rows, its own aggregated neighbour rows, the
    two weight matrices and the bias. -/
theorem result_eq (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S1600000, .i32⟩ : BufTy).Contents (Elt Ideal)) :
    val_main_v24 (F := Ideal) x0 x1 x2 x3 x4 x5
      = Cert.Combine.combine x0 (val_main_v18 (F := Ideal) x0 x4 x5) x1 x2 x3 := by
  funext i
  obtain ⟨p, n, rfl⟩ : ∃ (p : Fin 100000) (n : Fin 128), i = ix2 p n := ⟨i 0, i 1, eq_ix2 i⟩
  rw [Cert.Combine.combine_apply, val_main_v24_apply, val_main_v21_apply, val_main_v19_apply, val_main_v20_apply,
    val_main_v23_apply, val_main_v22_apply]
  simp only [lidx19, lidx20, ridx19, ridx20, bidx]
  rfl

end Cert.ReferenceIdeal.RefValue

end
-- ==== Proof.lean ====
/-
  A graph layer's dense step: out = feat · W_self + h · W_neigh + b, with h the mean over each node's incoming edges of
  the source nodes' feature rows (a node without incoming edges gets the zero row, its sum divided by 1).

  Both programs compute h on the host by the same gather, the same two scatter-adds and the same division, from the
  same arguments. The kernel then walks the 100000 rows in 20 blocks of 5000 and, per block, takes the two matrix
  products (its operands cast to bf16 first) into zero accumulators, adds them, and adds the bias row; the reference
  takes the two products of the whole arrays, adds them, and adds the bias broadcast down the rows. On the extended
  reals a change of float format is the identity, a product into a zero accumulator is the bare sum of the 128
  products, and both programs group the three terms as (self + neighbour) + bias: so entry (p, n) of either result is

      ( Σ_k feat[p, k] · W_self[k, n]  +  Σ_k h[p, k] · W_neigh[k, n] )  +  b[n]

  with no rearrangement of any sum, and nothing depends on the inputs being finite. The kernel's blocks tile the array
  (20 · 5000 = 100000), so its whole result is that function; the reference's is read off its operations one by one.
  The ideal pass rewrote nothing in the kernel, so the idealization claim is the trivial one.
-/
import proofs.«114133_j7945689498280_1_alg».proof.Defs
import proofs.«114133_j7945689498280_1_alg».proof.Proof.Gen.Kernel
import proofs.«114133_j7945689498280_1_alg».proof.Proof.Gen.Kernel.Skeleton
import proofs.«114133_j7945689498280_1_alg».proof.Proof.Gen.Kernel.Launch
import proofs.«114133_j7945689498280_1_alg».proof.Proof.Gen.Kernel.Points
import proofs.«114133_j7945689498280_1_alg».proof.Proof.Gen.Kernel.Frame
import proofs.«114133_j7945689498280_1_alg».proof.Proof.Gen.KernelIdeal
import proofs.«114133_j7945689498280_1_alg».proof.Proof.Gen.KernelIdeal.Skeleton
import proofs.«114133_j7945689498280_1_alg».proof.Proof.Gen.KernelIdeal.Launch
import proofs.«114133_j7945689498280_1_alg».proof.Proof.Gen.KernelIdeal.Points
import proofs.«114133_j7945689498280_1_alg».proof.Proof.Gen.KernelIdeal.Frame
import proofs.«114133_j7945689498280_1_alg».proof.Proof.Gen.ReferenceIdeal
import proofs.«114133_j7945689498280_1_alg».proof.Proof.Gen.Pre_finite_inputs
import proofs.«114133_j7945689498280_1_alg».proof.Proof.Gen.KernelIdeal.Value
import proofs.«114133_j7945689498280_1_alg».proof.Proof.Gen.ReferenceIdeal.Run
import proofs.«114133_j7945689498280_1_alg».proof.Proof.Gen.ReferenceIdeal.Read
import proofs.«114133_j7945689498280_1_alg».proof.Proof.KernelValue
import proofs.«114133_j7945689498280_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel's program as printed terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments the kernel's result is the combine function of the arguments (its run
    with the result named) and the reference's is the same function of the same arguments (its operations read one by
    one): equal arrays of extended reals. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
